-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : IVec S50000 32) (main_arg3 : FVec F S50000x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S50000x1 : Shape := ⟨2, ![50000, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 73
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S50000x128, .bf16⟩
  | .hbm, ⟨7, _⟩ => ⟨S_, .bf16⟩
  | .hbm, ⟨8, _⟩ => ⟨S100000x128, .bf16⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S100000x128, .bf16⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .bf16⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  scatter_S100000x128_S50000x1_S50000x128_1_0_0_1_wf : ScatterDims.WF S100000x128 S50000x1 S50000x128 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg3) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000x128, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S100000x128, .f32⟩
  | .hbm, ⟨17, _⟩ => ⟨S100000x128, .f32⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S50000x1_S50000x128_1_0_0_1_wf : ScatterDims.WF S100000x128 S50000x1 S50000x128 [1] [0] [0] 1
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run with its result array named.

  @main is three segments: the projection region (a row-blocked matrix product), one stretch of host
  operations (the scatter of the projected rows, the degree normalisation, the gather of source rows and the
  sum over incoming edges), and the epilogue region (bias and rectifier). The contents of every buffer at each
  segment boundary form a fold from the launch memory: the arrays a region writes back, then the host
  stretch applied to them, then the second region's arrays. This module runs the three segments once
  more and reads, against the final state, the RESULT buffer at the last boundary's contents, beside the six
  argument arrays, which end as launched.
-/
import proofs.«130107_j55834574848182_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents (the epilogue region's write-backs folded over the host stretch's results) and the
    argument arrays are as launched. -/
theorem run_result : θ_run defs (onTc (τ := τ) (main (F := F))) ⟨m, fun _ => 0, ρ⟩ (fun r => ∀ c : Dev nD,
      r.2.mem ((c.tc : Thread nD τ).loc main_v53) = W3 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v53 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibScatterRows.lean ====
/-
  Rows written by a scatter, read at an index.

  `x.at[idx].set(u)` for a matrix `x : [N, C]`, row numbers `idx : [K, 1]` and rows `u : [K, C]` lowers to a
  scatter whose body returns the update. Its value is a left fold over the `K · C` update entries in row-major
  order, each overwriting one entry of the matrix when its row number, read signed, is inside `[0, N)`. Read at an
  entry `(r, c)`, the fold leaves the entry `(k, c)` of the LAST update row `k` whose row number is `r`, and the
  matrix's own entry when no update row is aimed at `r`. Which `k` wins depends on the row numbers and on `r` only:
  for a fixed column the update entries meet the fold in the order of their rows.
-/
import Idealize.ShloMosaic.Lib.ValueIdx
noncomputable section
namespace Cert.LibScatterRows
open Idealize.ShloMosaic Idealize.ShloMosaic.ValueIdx
variable {α : Type}

/-! ## A fold of point writes, read at one point -/

/-- A left fold of point writes over a list `l`: step `j` overwrites the function at the point `ρ j` with `g j` when
    `ρ j` is a point, and changes nothing when it is none. Read at a point `p`, the result is `g j` for the LAST `j` of
    the list with `ρ j = some p`, and the starting function's value at `p` when there is none. -/
theorem foldl_write_apply {J I : Type} [DecidableEq I] (ρ : J → Option I) (g : J → α)
    (step : (I → α) → J → (I → α))
    (hsome : ∀ r j i, ρ j = some i → step r j = fun i' => if i' = i then g j else r i')
    (hnone : ∀ r j, ρ j = none → step r j = r)
    (x : I → α) (l : List J) (p : I) :
    l.foldl step x p
      = match (l.filter (fun j => decide (ρ j = some p))).getLast? with
        | some j => g j
        | none => x p := by
  induction l using List.reverseRecOn with
  | nil => rfl
  | append_singleton l a ih =>
    rw [List.foldl_append, List.foldl_cons, List.foldl_nil, List.filter_append, List.getLast?_append]
    cases hρ : ρ a with
    | none =>
      have hf : List.filter (fun j => decide (ρ j = some p)) [a] = [] := by
        simp [List.filter, hρ]
      rw [hnone _ _ hρ, ih, hf]
      rfl
    | some i =>
      rw [hsome _ _ _ hρ]
      by_cases hp : p = i
      · subst hp
        have hf : List.filter (fun j => decide (ρ j = some p)) [a] = [a] := by
          simp [List.filter, hρ]
        rw [hf]
        simp
      · have hf : List.filter (fun j => decide (ρ j = some p)) [a] = [] := by
          have : ¬ i = p := fun h => hp h.symm
          simp [List.filter, hρ, this]
        rw [hf]
        show (if p = i then g a else List.foldl step x l p) = _
        rw [if_neg hp, ih]
        rfl

/-! ## The last element of a filtered increasing list -/

/-- In a strictly increasing list the last element is the greatest. -/
theorem le_of_getLast?_of_pairwise {J : Type} [Preorder J] {l : List J} (hl : l.Pairwise (· < ·)) {m : J}
    (h : l.getLast? = some m) : ∀ a ∈ l, a ≤ m := by
  obtain ⟨ys, rfl⟩ := List.getLast?_eq_some_iff.mp h
  intro a ha
  rw [List.pairwise_append] at hl
  rcases List.mem_append.mp ha with ha | ha
  · exact le_of_lt (hl.2.2 a ha m (List.mem_singleton.mpr rfl))
  · rw [List.mem_singleton.mp ha]

/-- The last element satisfying `P` of a strictly increasing list: it is in the list, satisfies `P`, and every element
    of the list satisfying `P` is at most it. -/
theorem getLast?_filter_spec {J : Type} [Preorder J] {l : List J} (hl : l.Pairwise (· < ·)) (P : J → Bool) {m : J}
    (h : (l.filter P).getLast? = some m) : m ∈ l ∧ P m = true ∧ ∀ a ∈ l, P a = true → a ≤ m := by
  have hm := List.mem_filter.mp (List.mem_of_getLast? h)
  exact ⟨hm.1, hm.2, fun a ha hPa => le_of_getLast?_of_pairwise (hl.filter P) h a (List.mem_filter.mpr ⟨ha, hPa⟩)⟩

/-- Conversely, the greatest element satisfying `P` of a strictly increasing list is the last one satisfying `P`. -/
theorem getLast?_filter_eq_some {J : Type} [PartialOrder J] {l : List J} (hl : l.Pairwise (· < ·)) (P : J → Bool) {m : J}
    (hm : m ∈ l) (hP : P m = true) (hmax : ∀ a ∈ l, P a = true → a ≤ m) : (l.filter P).getLast? = some m := by
  cases h : (l.filter P).getLast? with
  | none =>
    rw [List.getLast?_eq_none_iff] at h
    have hmem : m ∈ l.filter P := List.mem_filter.mpr ⟨hm, hP⟩
    rw [h] at hmem
    exact absurd hmem List.not_mem_nil
  | some m' =>
    obtain ⟨h1, h2, h3⟩ := getLast?_filter_spec hl P h
    exact congrArg some (le_antisymm (hmax m' h1 h2) (h3 m hm hP))

/-! ## The rows a scatter of whole rows writes -/

/-- The row of an N-row matrix that an integer word names when read SIGNED, if it is inside [0, N); none otherwise. -/
def rowOf? {w : Nat} (N : Nat) (v : BitVec w) : Option (Fin N) :=
  if h : 0 ≤ v.toInt ∧ v.toInt < N then some ⟨v.toInt.toNat, by omega⟩ else none

/-- Among the K update rows, the LAST one (largest k) whose row number lands on row r; none if no update lands there. -/
def winner {w K : Nat} (N : Nat) (idx : IVec ⟨2, ![K, 1]⟩ w) (r : Fin N) : Option (Fin K) :=
  ((List.finRange K).filter (fun k => rowOf? N (idx (ix2 k (0 : Fin 1))) = some r)).getLast?

/-- The dimension numbers of x.at[idx].set(u) for x : [N, C], idx : [K, 1], u : [K, C]. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows
variable {N C K w : Nat} (wf : ScatterDims.WF ⟨2, ![N, C]⟩ ⟨2, ![K, 1]⟩ ⟨2, ![K, C]⟩ [1] [0] [0] 1)

/-- The window of update index `(k, c)` starts, on the row axis, at the row number `idx[k, 0]` read signed. -/
theorem start_zero (idx : IVec ⟨2, ![K, 1]⟩ w) (k : Fin K) (c : Fin C) :
    (rowsDims N C K wf).start (ix2 k c) idx 0 = (idx (ix2 k (0 : Fin 1))).toInt := by
  unfold ScatterDims.start
  rw [dif_pos (show (0 : Fin 2) ∈ (rowsDims N C K wf).scatterDimsToOperandDims from List.mem_singleton.mpr rfl)]
  have hsi : (rowsDims N C K wf).siIdx (ix2 k c) ⟨List.idxOf (0 : Fin 2) (rowsDims N C K wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- … and, on the column axis, at 0. -/
theorem start_one (idx : IVec ⟨2, ![K, 1]⟩ w) (k : Fin K) (c : Fin C) :
    (rowsDims N C K wf).start (ix2 k c) idx 1 = 0 := by
  unfold ScatterDims.start
  have h1 : ¬ (1 : Fin 2) ∈ (rowsDims N C K wf).scatterDimsToOperandDims := by
    show ¬ (1 : Fin 2) ∈ ([0] : List (Fin 2))
    decide
  rw [dif_neg h1]

/-- The window coordinate of update index `(k, c)` is 0 on the row axis (an inserted axis) … -/
theorem window_zero (k : Fin K) (c : Fin C) : (rowsDims N C K wf).window (ix2 k c) 0 = 0 := by
  unfold ScatterDims.window
  have h0 : ¬ (0 : Fin 2) ∈ (rowsDims N C K wf).sKept := by
    show ¬ (0 : Fin 2) ∈ (List.finRange 2).filter (· ∉ ([0] : List (Fin 2)))
    decide
  rw [dif_neg h0]

/-- … and `c` on the column axis. -/
theorem window_one (k : Fin K) (c : Fin C) : (rowsDims N C K wf).window (ix2 k c) 1 = c.val := by
  unfold ScatterDims.window
  have h1 : (1 : Fin 2) ∈ (rowsDims N C K wf).sKept := by
    show (1 : Fin 2) ∈ (List.finRange 2).filter (· ∉ ([0] : List (Fin 2)))
    decide
  rw [dif_pos h1]
  rfl

/-- Where update index `(k, c)` lands: at `(r, c)` when the row number `idx[k, 0]` names the row `r` of the operand,
    nowhere when it names none. -/
theorem resultIdx?_rows (idx : IVec ⟨2, ![K, 1]⟩ w) (k : Fin K) (c : Fin C) :
    (rowsDims N C K wf).resultIdx? (ix2 k c) idx = (rowOf? N (idx (ix2 k (0 : Fin 1)))).map (fun r => ix2 r c) := by
  have hcol : (c.val : Int) < (C : Int) := by exact_mod_cast c.isLt
  unfold ScatterDims.resultIdx? rowOf?
  by_cases h : 0 ≤ (idx (ix2 k (0 : Fin 1))).toInt ∧ (idx (ix2 k (0 : Fin 1))).toInt < N
  · have hall : ∀ a : Fin 2, 0 ≤ (rowsDims N C K wf).start (ix2 k c) idx a + (rowsDims N C K wf).window (ix2 k c) a
        ∧ (rowsDims N C K wf).start (ix2 k c) idx a + (rowsDims N C K wf).window (ix2 k c) a < (⟨2, ![N, C]⟩ : Shape).size a := by
      intro a
      match a with
      | ⟨0, _⟩ =>
        show 0 ≤ (rowsDims N C K wf).start (ix2 k c) idx 0 + ((rowsDims N C K wf).window (ix2 k c) 0 : Nat)
          ∧ (rowsDims N C K wf).start (ix2 k c) idx 0 + ((rowsDims N C K wf).window (ix2 k c) 0 : Nat) < (N : Int)
        rw [start_zero, window_zero]; omega
      | ⟨1, _⟩ =>
        show 0 ≤ (rowsDims N C K wf).start (ix2 k c) idx 1 + ((rowsDims N C K wf).window (ix2 k c) 1 : Nat)
          ∧ (rowsDims N C K wf).start (ix2 k c) idx 1 + ((rowsDims N C K wf).window (ix2 k c) 1 : Nat) < (C : Int)
        rw [start_one, window_one]; omega
    rw [dif_pos hall, dif_pos h]
    refine congrArg some ?_
    funext a; refine Fin.ext ?_
    match a with
    | ⟨0, _⟩ =>
      show ((rowsDims N C K wf).start (ix2 k c) idx 0 + ((rowsDims N C K wf).window (ix2 k c) 0 : Nat)).toNat = _
      rw [start_zero, window_zero]; simp
    | ⟨1, _⟩ =>
      show ((rowsDims N C K wf).start (ix2 k c) idx 1 + ((rowsDims N C K wf).window (ix2 k c) 1 : Nat)).toNat = c.val
      rw [start_one, window_one]; omega
  · rw [dif_neg h, dif_neg]
    · rfl
    · intro hall
      have h0 := hall 0
      have h0' : 0 ≤ (rowsDims N C K wf).start (ix2 k c) idx 0 + ((rowsDims N C K wf).window (ix2 k c) 0 : Nat)
          ∧ (rowsDims N C K wf).start (ix2 k c) idx 0 + ((rowsDims N C K wf).window (ix2 k c) 0 : Nat) < (N : Int) := h0
      rw [start_zero, window_zero] at h0'
      exact h ⟨by omega, by omega⟩

end Rows

section Main
variable {N C K w : Nat}

/-- Two rank-2 indices are equal exactly when their coordinates are. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- The row-major position of `(k, c)` among the `K × C` update indices is `k * C + c`. -/
theorem rowMajor_ix2_val (k : Fin K) (c : Fin C) :
    ((⟨2, ![K, C]⟩ : Shape).rowMajor (ix2 k c)).val = k.val * C + c.val :=
  (Shape.rowMajor_val_two _).trans rfl

/-- Update index `(k, c')` lands on `(r, c)` exactly when its row number names the row `r` and its column is `c`. -/
theorem lands_iff (wf : ScatterDims.WF ⟨2, ![N, C]⟩ ⟨2, ![K, 1]⟩ ⟨2, ![K, C]⟩ [1] [0] [0] 1)
    (idx : IVec ⟨2, ![K, 1]⟩ w) (r : Fin N) (c : Fin C) (k : Fin K) (c' : Fin C) :
    (rowsDims N C K wf).resultIdx? (ix2 k c') idx = some (ix2 r c)
      ↔ rowOf? N (idx (ix2 k (0 : Fin 1))) = some r ∧ c' = c := by
  rw [resultIdx?_rows]
  cases h : rowOf? N (idx (ix2 k (0 : Fin 1))) with
  | none => simp
  | some r' => simp [ix2_eq_iff]

end Main

/-- Rows written by a scatter whose body returns the update: entry (r, c) of the result is entry (k, c) of the updates for the LAST update row k that lands on r, and the operand's entry where none does. The winning k does not depend on the column c. -/
theorem scatter_set_rows_apply {N C K w : Nat}
    (wf : ScatterDims.WF ⟨2, ![N, C]⟩ ⟨2, ![K, 1]⟩ ⟨2, ![K, C]⟩ [1] [0] [0] 1)
    (x : (⟨2, ![N, C]⟩ : Shape).Idx → α) (idx : IVec ⟨2, ![K, 1]⟩ w) (u : (⟨2, ![K, C]⟩ : Shape).Idx → α)
    (r : Fin N) (c : Fin C) :
    Host.scatter (rowsDims N C K wf) (fun _ b => b) x idx u (ix2 r c)
      = match winner N idx r with
        | some k => u (ix2 k c)
        | none => x (ix2 r c) := by
  unfold Host.scatter
  refine (foldl_write_apply
      (fun n => (rowsDims N C K wf).resultIdx? ((⟨2, ![K, C]⟩ : Shape).rowMajor.symm n) idx)
      (fun n => u ((⟨2, ![K, C]⟩ : Shape).rowMajor.symm n)) _ ?_ ?_ x _ (ix2 r c)).trans ?_
  · intro r' n i h
    simp only [h]
  · intro r' n h
    simp only [h]
  · -- every update index is `(k, c')` for a row `k` and a column `c'`
    have hsplit : ∀ n : Fin (⟨2, ![K, C]⟩ : Shape).numel, ∃ (k : Fin K) (c' : Fin C),
        (⟨2, ![K, C]⟩ : Shape).rowMajor.symm n = ix2 k c' := fun n => ⟨_, _, eq_ix2 _⟩
    cases hw : winner N idx r with
    | none =>
      -- no update row lands on `r`, so no update index lands on `(r, c)`
      unfold winner at hw
      rw [List.getLast?_eq_none_iff, List.filter_eq_nil_iff] at hw
      have hnil : (List.finRange (⟨2, ![K, C]⟩ : Shape).numel).filter (fun n =>
          decide ((rowsDims N C K wf).resultIdx? ((⟨2, ![K, C]⟩ : Shape).rowMajor.symm n) idx = some (ix2 r c))) = [] := by
        rw [List.filter_eq_nil_iff]
        intro n _ hn
        obtain ⟨k, c', hkc⟩ := hsplit n
        have hn' := of_decide_eq_true hn
        rw [hkc] at hn'
        exact hw k (List.mem_finRange k) (decide_eq_true ((lands_iff wf idx r c k c').mp hn').1)
      rw [hnil]
      rfl
    | some k =>
      -- `k` is the greatest update row landing on `r`; `(k, c)` is then the last update index landing on `(r, c)`
      unfold winner at hw
      obtain ⟨-, hPk, hmax⟩ := getLast?_filter_spec (List.sortedLT_finRange K).pairwise _ hw
      have hlast : ((List.finRange (⟨2, ![K, C]⟩ : Shape).numel).filter (fun n =>
          decide ((rowsDims N C K wf).resultIdx? ((⟨2, ![K, C]⟩ : Shape).rowMajor.symm n) idx = some (ix2 r c)))).getLast?
            = some ((⟨2, ![K, C]⟩ : Shape).rowMajor (ix2 k c)) := by
        refine getLast?_filter_eq_some (List.sortedLT_finRange _).pairwise _ (List.mem_finRange _) ?_ ?_
        · refine decide_eq_true ?_
          rw [Equiv.symm_apply_apply]
          exact (lands_iff wf idx r c k c).mpr ⟨of_decide_eq_true hPk, rfl⟩
        · intro n _ hn
          obtain ⟨k', c', hkc⟩ := hsplit n
          have hn' := of_decide_eq_true hn
          rw [hkc] at hn'
          obtain ⟨hk', hc'⟩ := (lands_iff wf idx r c k' c').mp hn'
          have hle : k' ≤ k := hmax k' (List.mem_finRange k') (decide_eq_true hk')
          have hn_eq : n = (⟨2, ![K, C]⟩ : Shape).rowMajor (ix2 k' c') := by
            rw [← hkc, Equiv.apply_symm_apply]
          rw [hn_eq, Fin.le_def, rowMajor_ix2_val, rowMajor_ix2_val, hc']
          have := Nat.mul_le_mul_right C (Fin.le_def.mp hle)
          omega
      rw [hlast]
      show u ((⟨2, ![K, C]⟩ : Shape).rowMajor.symm ((⟨2, ![K, C]⟩ : Shape).rowMajor (ix2 k c))) = u (ix2 k c)
      rw [Equiv.symm_apply_apply]

end Cert.LibScatterRows
end
-- ==== Proof.Algebra.lean ====
/-
  The two whole-array functions of this certificate, and the one law that joins its two sides.

  `rowsTimes x W` is the product of a matrix of 128 columns with a 128 × 128 matrix, `biasRelu a b` the bias and
  rectifier `max (a + b, 0)`, both entry by entry on the extended reals.

  THE LAW. Writing rows into a zero matrix and then multiplying by `W` gives the same matrix as multiplying the rows
  by `W` first and writing the products: row `r` of the scattered matrix is either one of the written rows, the LAST
  one aimed at `r` — the same one whatever is being written, since it is decided by the row numbers alone — or zero;
  in the first case both sides are that row's product with `W`, in the second both are zero, `0 · w` being `0` for
  every extended real `w`. No finiteness of the entries is used.
-/
import Idealize.ShloMosaic.Lib.ValueIdx
import Idealize.ShloMosaic.PureOps.Ideal.Laws
import proofs.«130107_j55834574848182_2_alg».proof.Proof.LibScatterRows

noncomputable section

namespace Cert.Algebra

open Idealize.ShloMosaic Idealize.ShloMosaic.ValueIdx Cert.LibScatterRows

/-- The product of a matrix of 128 columns with a 128 × 128 matrix, entry by entry, on the extended reals. -/
def rowsTimes {n : Nat} (x : (⟨2, ![n, 128]⟩ : Shape).Idx → EReal) (W : (⟨2, ![128, 128]⟩ : Shape).Idx → EReal) :
    (⟨2, ![n, 128]⟩ : Shape).Idx → EReal :=
  fun i => ∑ k : Fin 128, x (ix2 (i 0) k) * W (ix2 k (i 1))

theorem rowsTimes_apply {n : Nat} (x : (⟨2, ![n, 128]⟩ : Shape).Idx → EReal) (W : (⟨2, ![128, 128]⟩ : Shape).Idx → EReal)
    (p : Fin n) (e : Fin 128) : rowsTimes x W (ix2 p e) = ∑ k : Fin 128, x (ix2 p k) * W (ix2 k e) := rfl

/-- Bias and rectifier, entry by entry: `max (a (p, e) + b (0, e), 0)` on the extended reals, the bias a 1 × 128 row. -/
def biasRelu {n : Nat} (a : (⟨2, ![n, 128]⟩ : Shape).Idx → EReal) (b : (⟨2, ![1, 128]⟩ : Shape).Idx → EReal) :
    (⟨2, ![n, 128]⟩ : Shape).Idx → EReal :=
  fun i => max (a i + b (ix2 (0 : Fin 1) (i 1))) (Ideal.ofBits .f32 0x00000000#32)

/-- Rows written into the zero matrix, then multiplied by `W`, are the rows' products with `W` written into the
    zero matrix. -/
theorem rowsTimes_scatter {N K w : Nat}
    (wf : ScatterDims.WF ⟨2, ![N, 128]⟩ ⟨2, ![K, 1]⟩ ⟨2, ![K, 128]⟩ [1] [0] [0] 1)
    (idx : IVec ⟨2, ![K, 1]⟩ w) (x : (⟨2, ![K, 128]⟩ : Shape).Idx → EReal) (W : (⟨2, ![128, 128]⟩ : Shape).Idx → EReal) :
    rowsTimes (Host.scatter (rowsDims N 128 K wf) (fun _ b => b) (fun _ => (0 : EReal)) idx x) W
      = Host.scatter (rowsDims N 128 K wf) (fun _ b => b) (fun _ => (0 : EReal)) idx (rowsTimes x W) := by
  funext i
  obtain ⟨r, e, rfl⟩ : ∃ (r : Fin N) (e : Fin 128), i = ix2 r e := ⟨i 0, i 1, eq_ix2 i⟩
  rw [rowsTimes_apply, scatter_set_rows_apply]
  simp only [scatter_set_rows_apply]
  cases winner N idx r with
  | none => simp
  | some k => rfl

end Cert.Algebra

end
-- ==== Proof.Projection.lean ====
/-
  The projection region: what its result array holds after the run.

  The first region multiplies the pooled features `x : [50000, 128]` by the weights `W : [128, 128]`, ten
  thousand rows at a grid point: point `t` loads rows `10000·t … 10000·t + 9999` of `x` and the whole of `W`,
  forms their product into a zero block and writes it back to the same rows of the result. A row of a matrix
  product depends on that row of the left factor only, so the five blocks are the restrictions of ONE function of
  the two arrays: entry `(p, e)` is `∑ₖ x (p, k) · W (k, e)` on the extended reals (rounding to the narrower
  float format is the identity there). The five blocks cover the result array.
-/
import proofs.«130107_j55834574848182_2_alg».proof.Proof.Gen.KernelIdeal.Frame
import proofs.«130107_j55834574848182_2_alg».proof.Proof.LibPlainDot
import proofs.«130107_j55834574848182_2_alg».proof.Proof.Algebra
import Idealize.ShloMosaic.Lib.Pipeline.Value
import Idealize.ShloMosaic.Lib.ValueIdx

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Pipeline (Dat)
open Idealize.ShloMosaic.ValueIdx Cert.Algebra

/-! ## The product's dimension record read at an index -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's stored value at an entry of its block: the product of the loaded rows with the loaded weights. -/
theorem block_apply (x0 : Vec Ideal S10000x128 .f32) (x1 : Vec Ideal S128x128 .f32) (p : Fin 10000) (e : Fin 128) :
    k0_pay1 (F := Ideal) x0 x1 (ix2 p e) = ∑ k : Fin 128, x0 (ix2 p k) * x1 (ix2 k e) := by
  unfold k0_pay1
  exact Cert.LibPlainDot.matmul_zero_apply dot_S10000x128_S128x128_S10000x128_1_0_0_1_n_n rfl rfl lhs0 lhs1 rhs0 rhs1
    (truncf .bf16 x0 bitsLt_bf16_f32) (truncf .bf16 x1 bitsLt_bf16_f32) p e

/-- The body's stored block is the product of the loaded blocks. -/
theorem block_eq (x0 : Vec Ideal S10000x128 .f32) (x1 : Vec Ideal S128x128 .f32) :
    k0_pay1 (F := Ideal) x0 x1 = rowsTimes x0 x1 := by
  funext j
  obtain ⟨p, e, rfl⟩ : ∃ (p : Fin 10000) (e : Fin 128), j = ix2 p e := ⟨j 0, j 1, eq_ix2 j⟩
  exact block_apply x0 x1 p e

/-! ## From the five blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the five grid points: the rows' window and the result's window sit at block `t` of
    the row axis, the weights' window at the origin, and nothing moves along the columns. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two argument arrays as the region finds them. -/
theorem flushed_eq (c : Dev nD) (t : Fin cfg0.N) :
    (dat0 V c).flushed 2 t
      = ((cfg0.win 2).blk t).view.read (Elt Ideal) (rowsTimes (n := 50000) (V c main_arg3) (V c main_arg4)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  rw [block_eq]
  obtain ⟨e0, e1, e2, e3, e4, e5⟩ := index_facts t
  funext j
  have key : ∀ (A : S50000x128.Idx → EReal) (B : S128x128.Idx → EReal),
      (∑ k : Fin 128, A (((cfg0.win 0).blk t).view.emb (ix2 (j 0) k)) * B (((cfg0.win 1).blk t).view.emb (ix2 k (j 1))))
        = ∑ k : Fin 128, A (ix2 ((((cfg0.win 2).blk t).view.emb j) 0) k) * B (ix2 k ((((cfg0.win 2).blk t).view.emb j) 1)) := by
    intro A B
    refine Finset.sum_congr rfl fun k _ => ?_
    have h0 : ((cfg0.win 0).blk t).view.emb (ix2 (j 0) k) = ix2 ((((cfg0.win 2).blk t).view.emb j) 0) k := by
      funext a; apply Fin.ext
      match a with
      | ⟨0, _⟩ =>
        show win0_0.index t (0 : Fin 2) * 10000 + 1 * (j 0).val = win0_2.index t (0 : Fin 2) * 10000 + 1 * (j 0).val
        omega
      | ⟨1, _⟩ =>
        show win0_0.index t (1 : Fin 2) * 128 + 1 * k.val = k.val
        omega
    have h1 : ((cfg0.win 1).blk t).view.emb (ix2 k (j 1)) = ix2 k ((((cfg0.win 2).blk t).view.emb j) 1) := by
      funext a; apply Fin.ext
      match a with
      | ⟨0, _⟩ =>
        show win0_1.index t (0 : Fin 2) * 128 + 1 * k.val = k.val
        omega
      | ⟨1, _⟩ =>
        show win0_1.index t (1 : Fin 2) * 128 + 1 * (j 1).val = win0_2.index t (1 : Fin 2) * 128 + 1 * (j 1).val
        omega
    exact congrArg₂ (· * ·) (congrArg A h0) (congrArg B h1)
  exact key (V c main_arg3) (V c main_arg4)

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Every entry of the result array lies in the block of the point its row falls in. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 5 := N_0
  let t : Fin cfg0.N := ⟨(i 0).val / 10000, by show (i 0).val / 10000 < grid0.N; omega⟩
  obtain ⟨e0, e1, e2, e3, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    have : t.val = (i 0).val / 10000 := rfl
    omega
  | ⟨1, _⟩ =>
    show win0_2.index t (1 : Fin 2) * 128 ≤ (i 1).val ∧ (i 1).val < win0_2.index t (1 : Fin 2) * 128 + 128
    omega

/-- After the region's write-backs the result array is the product of the two argument arrays. -/
theorem final (c : Dev nD) :
    (dat0 V c).arrAt 2 cfg0.N = rowsTimes (n := 50000) (V c main_arg3) (V c main_arg4) :=
  (dat0 V c).arrAt_eq_of_cover 2 _ (fun t _ => flushed_eq V c t) covered

end Cert.KernelIdeal.Projection

end
-- ==== Proof.Epilogue.lean ====
/-
  The epilogue region: what its result array holds after the run.

  The second region adds the bias to the aggregated features and applies the rectifier, ten thousand rows at a grid
  point: point `t` loads rows `10000·t … 10000·t + 9999` of the aggregate and the one row of the bias, and writes
  `max (a + b, 0)` back to the same rows of the result. Entry `(p, e)` depends on the aggregate at `(p, e)` and
  the bias at column `e` only, so the ten blocks are the restrictions of ONE function of the two arrays, and they
  cover the result array.
-/
import proofs.«130107_j55834574848182_2_alg».proof.Proof.Gen.KernelIdeal.Frame
import proofs.«130107_j55834574848182_2_alg».proof.Proof.Algebra
import Idealize.ShloMosaic.Lib.Pipeline.Value
import Idealize.ShloMosaic.Lib.ValueIdx
import Idealize.ShloMosaic.Lib.ValueLayout

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.Pipeline (Dat)
open Idealize.ShloMosaic.ValueIdx Cert.Algebra

/-- The body's stored value at an entry of its block. -/
theorem block_apply (x0 : Vec Ideal S10000x128 .f32) (x1 : Vec Ideal S1x128 .f32) (p : Fin 10000) (e : Fin 128) :
    k1_pay1 (F := Ideal) x0 x1 (ix2 p e)
      = max (x0 (ix2 p e) + x1 (ix2 (0 : Fin 1) e)) (Ideal.ofBits .f32 0x00000000#32) := by
  unfold k1_pay1
  show max ((shapeCast S10000x128 x0 shapeCasts_S10000x128_S10000x128) (ix2 p e)
      + (broadcastTo S10000x128 (shapeCast S1x128 x1 shapeCasts_S1x128_S1x128) broadcasts_S1x128_S10000x128) (ix2 p e))
      (Ideal.ofBits .f32 0x00000000#32) = _
  rw [shapeCast_self, shapeCast_self, broadcastTo_1b_ab_apply]

/-- The body's stored block is bias-and-rectifier of the loaded blocks. -/
theorem block_eq (x0 : Vec Ideal S10000x128 .f32) (x1 : Vec Ideal S1x128 .f32) :
    k1_pay1 (F := Ideal) x0 x1 = biasRelu x0 x1 := by
  funext j
  obtain ⟨p, e, rfl⟩ : ∃ (p : Fin 10000) (e : Fin 128), j = ix2 p e := ⟨j 0, j 1, eq_ix2 j⟩
  exact block_apply x0 x1 p e

/-! ## From the ten blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the aggregate's window and the result's window sit at block
    `t` of the row axis, the bias's window at the origin, and nothing moves along the columns. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of bias-and-rectifier of the two arrays as the region finds them. -/
theorem flushed_eq (c : Dev nD) (t : Fin cfg1.N) :
    (dat1 V c).flushed 2 t
      = ((cfg1.win 2).blk t).view.read (Elt Ideal) (biasRelu (n := 100000) (V c main_v51) (V c main_v52)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S1x128) offsets_zero]
  rw [block_eq]
  obtain ⟨e0, e1, e2, e3, e4, e5⟩ := index_facts t
  funext j
  have key : ∀ (A : S100000x128.Idx → EReal) (B : S1x128.Idx → EReal),
      max (A (((cfg1.win 0).blk t).view.emb j) + B (((cfg1.win 1).blk t).view.emb (ix2 (0 : Fin 1) (j 1))))
          (Ideal.ofBits .f32 0x00000000#32)
        = max (A (((cfg1.win 2).blk t).view.emb j) + B (ix2 (0 : Fin 1) ((((cfg1.win 2).blk t).view.emb j) 1)))
          (Ideal.ofBits .f32 0x00000000#32) := by
    intro A B
    have h0 : ((cfg1.win 0).blk t).view.emb j = ((cfg1.win 2).blk t).view.emb j := by
      funext a; apply Fin.ext
      match a with
      | ⟨0, _⟩ =>
        show win1_0.index t (0 : Fin 2) * 10000 + 1 * (j 0).val = win1_2.index t (0 : Fin 2) * 10000 + 1 * (j 0).val
        omega
      | ⟨1, _⟩ =>
        show win1_0.index t (1 : Fin 2) * 128 + 1 * (j 1).val = win1_2.index t (1 : Fin 2) * 128 + 1 * (j 1).val
        omega
    have h1 : ((cfg1.win 1).blk t).view.emb (ix2 (0 : Fin 1) (j 1))
        = ix2 (0 : Fin 1) ((((cfg1.win 2).blk t).view.emb j) 1) := by
      funext a; apply Fin.ext
      match a with
      | ⟨0, _⟩ =>
        show win1_1.index t (0 : Fin 2) * 1 + 1 * 0 = 0
        omega
      | ⟨1, _⟩ =>
        show win1_1.index t (1 : Fin 2) * 128 + 1 * (j 1).val = win1_2.index t (1 : Fin 2) * 128 + 1 * (j 1).val
        omega
    exact congrArg (fun z => max z (Ideal.ofBits .f32 0x00000000#32)) (congrArg₂ (· + ·) (congrArg A h0) (congrArg B h1))
  exact key (V c main_v51) (V c main_v52)

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v53).slice (win1_2.rect t)).set ↔ _
  rw [View.set_slice_whole, Rect.mem_set_unit]
  exact Iff.rfl

/-- Every entry of the result array lies in the block of the point its row falls in. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  obtain ⟨e0, e1, e2, e3, e4, e5⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    have : t.val = (i 0).val / 10000 := rfl
    omega
  | ⟨1, _⟩ =>
    show win1_2.index t (1 : Fin 2) * 128 ≤ (i 1).val ∧ (i 1).val < win1_2.index t (1 : Fin 2) * 128 + 128
    omega

/-- After the region's write-backs the result array is bias-and-rectifier of the aggregate and the bias row. -/
theorem final (c : Dev nD) :
    (dat1 V c).arrAt 2 cfg1.N = biasRelu (n := 100000) (V c main_v51) (V c main_v52) :=
  (dat1 V c).arrAt_eq_of_cover 2 _ (fun t _ => flushed_eq V c t) covered

end Cert.KernelIdeal.Epilogue

end
-- ==== Proof.Aggregate.lean ====
/-
  The aggregation both programs share, as one function of the node features.

  After the projected node features `h : [100000, 128]` are formed, both programs do the same thing with them: every
  edge `(s, d)` of the edge list, and a self-loop at every node, carries the row `h[s]` scaled by
  `rsqrt (max (deg s, 1)) · rsqrt (max (deg d, 1))` (the degrees counted over the same list) into an accumulator
  row `d` that starts at zero. The function below is that sum, written with the reference program's own stages for
  everything that depends on the edge list alone; the node features are its first argument, so that the
  certificate only has to show the two programs feed it equal features, and never opens the sum.
-/
import proofs.«130107_j55834574848182_2_alg».proof.Proof.Gen.ReferenceIdeal.Read

noncomputable section

namespace Cert.ReferenceIdeal.RefValue

open Cert.ReferenceIdeal Cert.ReferenceIdeal.Gen Cert.ReferenceIdeal.Read Idealize.ShloMosaic

/-- The normalised sum over incoming edges (self-loops included) of the rows of `h`, from the edge list `e`. -/
def aggregate (h : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd (F := Ideal) (φ := .f32) scatter_S100000x128_S1700000x1_S1700000x128_1_0_0_1 (val_main_v48 (F := Ideal))
    (val_main_v49 (F := Ideal) e)
    (mulf (F := Ideal) (φ := .f32)
      (Host.gather gather_S100000x128_S1700000x1_S1700000x128_1_0_n_n_0_1_1128 h (val_main_v43 (F := Ideal) e))
      (val_main_v46 (F := Ideal) e))

/-- The reference's aggregate is this function of its projected features. -/
theorem val_main_v50_eq (x1 : (⟨S2x1600000, .i32⟩ : BufTy).Contents (Elt Ideal)) (x2 : (⟨S50000, .i32⟩ : BufTy).Contents (Elt Ideal))
    (x3 : (⟨S50000x128, .f32⟩ : BufTy).Contents (Elt Ideal)) (x4 : (⟨S128x128, .f32⟩ : BufTy).Contents (Elt Ideal)) :
    val_main_v50 (F := Ideal) x1 x2 x3 x4 = aggregate (val_main_v8 (F := Ideal) x2 x3 x4) x1 := rfl

end Cert.ReferenceIdeal.RefValue

end
-- ==== Proof.HostStretch.lean ====
/-
  The host operations between the two regions, read back.

  Between the projection and the epilogue the program runs one stretch of host operations. Two of its results are
  read by the epilogue: the aggregate — the projected rows written into a zero matrix at the given row numbers
  (negative numbers counted from the end), then the normalised sum over incoming edges — and the bias reshaped to one
  row. Each is stated here as a function of the contents the stretch starts from; the sum over edges is the
  function both programs share.
-/
import proofs.«130107_j55834574848182_2_alg».proof.Proof.Gen.KernelIdeal.Frame
import proofs.«130107_j55834574848182_2_alg».proof.Proof.Aggregate
import Idealize.ShloMosaic.Lib.StableHlo.Run
import Idealize.ShloMosaic.PureOps.Ideal

set_option maxRecDepth 16384

noncomputable section

namespace Cert.KernelIdeal.HostStretch

open Cert.KernelIdeal Cert.KernelIdeal.Gen Idealize.ShloMosaic Idealize.ShloMosaic.TcCoe Idealize.SL.Sem Idealize.ShloMosaic.StableHlo

/-- The projected rows `hx` written into a zero matrix at the row numbers `ix`, a negative number counted from the end. -/
def scattered (hx : (⟨S50000x128, .bf16⟩ : BufTy).Contents (Elt Ideal)) (ix : (⟨S50000, .i32⟩ : BufTy).Contents (Elt Ideal)) :
    (⟨S100000x128, .bf16⟩ : BufTy).Contents (Elt Ideal) :=
  Host.scatter scatter_S100000x128_S50000x1_S50000x128_1_0_0_1 (fun _ b => b)
    (broadcastInDim S100000x128 ![] bcast_S_S100000x128 (constant (F := Ideal) S_ .bf16 0x0000#16))
    (broadcastInDim S50000x1 ![0] bcast_S50000_S50000x1_0
      (select (cmpi .slt ix (broadcastInDim S50000 ![] bcast_S_S50000 (constantI S_ 32 0#32)))
        (addi ix (broadcastInDim S50000 ![] bcast_S_S50000 (constantI S_ 32 100000#32))) ix))
    hx

/-- Equal operands give equal accumulating scatters, gathers and products. -/
theorem scatterAdd_congr {s si u : Shape} {w : Nat} {φ : FTy} {d d' : ScatterDims s si u} (hd : d = d')
    {x x' : FVec Ideal s φ} (hx : x = x') {i i' : IVec si w} (hi : i = i') {v v' : FVec Ideal u φ} (hv : v = v') :
    Host.scatterAdd d x i v = Host.scatterAdd d' x' i' v' := by subst hd hx hi hv; rfl
theorem gather_congr {s si t : Shape} {w : Nat} {d d' : GatherDims s si t} (hd : d = d')
    {x x' : s.Idx → EReal} (hx : x = x') {i i' : IVec si w} (hi : i = i') :
    Host.gather d x i = Host.gather d' x' i' := by subst hd hx hi; rfl
theorem mulf_congr {s : Shape} {φ : FTy} {x x' y y' : FVec Ideal s φ} (hx : x = x') (hy : y = y') :
    mulf x y = mulf x' y' := by subst hx hy; rfl

/-- Widening the float format is the identity on the extended reals. -/
theorem extf_id {s : Shape} (x : FVec Ideal s .bf16) (h : (FTy.bf16).bits < (FTy.f32).bits) :
    (extf .f32 x h : s.Idx → EReal) = (x : s.Idx → EReal) := rfl

set_option maxHeartbeats 4000000 in
/-- The aggregate the epilogue reads: the shared sum over edges of the scattered projected rows. -/
theorem after_aggregate (W : Valuation τ sig (Elt Ideal)) :
    StableHlo.after (hostOps1 (F := Ideal)) W (Proc.devRef .tc main_v51)
      = Cert.ReferenceIdeal.RefValue.aggregate
          (scattered (W (Proc.devRef .tc main_v0)) (W (Proc.devRef .tc main_arg2))) (W (Proc.devRef .tc main_arg1)) := by
  after_results_simp
  unfold Cert.ReferenceIdeal.RefValue.aggregate
  refine scatterAdd_congr rfl ?_ ?_ (mulf_congr ((extf_id _ _).trans (gather_congr rfl ?_ ?_)) ?_)
  · rfl
  · rfl
  · rfl
  · rfl
  · rfl

set_option maxHeartbeats 4000000 in
/-- The bias row the epilogue reads: the bias vector reshaped to 1 × 128. -/
theorem after_bias (W : Valuation τ sig (Elt Ideal)) :
    StableHlo.after (hostOps1 (F := Ideal)) W (Proc.devRef .tc main_v52)
      = shapeCast S1x128 (W (Proc.devRef .tc main_arg5)) shapeCasts_S128_S1x128 := by
  after_results_simp <;> rfl

end Cert.KernelIdeal.HostStretch

end
-- ==== Proof.KernelValue.lean ====
/-
  The idealized kernel program's result array, as one function of the argument arrays.

  The run (`RunValue.run_result`) leaves the result buffer at the last segment boundary's contents. Walking the
  boundaries back: the epilogue region's result is bias-and-rectifier of the aggregate and the bias row
  (`Epilogue.final`); those two are what the host stretch computes (`HostStretch.after_aggregate`, `after_bias`) from the
  projection region's result, the edge list, the row numbers and the bias — arguments the first region leaves as
  launched —; and the projection region's result is the product of the pooled rows with the weights
  (`Projection.final`).
-/
import proofs.«130107_j55834574848182_2_alg».proof.Proof.KernelRun
import proofs.«130107_j55834574848182_2_alg».proof.Proof.Projection
import proofs.«130107_j55834574848182_2_alg».proof.Proof.Epilogue
import proofs.«130107_j55834574848182_2_alg».proof.Proof.HostStretch

set_option maxRecDepth 16384

noncomputable section

namespace Cert.KernelIdeal.Result

open Cert.KernelIdeal Cert.KernelIdeal.Gen Idealize.ShloMosaic Idealize.ShloMosaic.TcCoe Idealize.SL.Sem
open Cert.Algebra Cert.KernelIdeal.HostStretch Cert.ReferenceIdeal.RefValue

variable (m : (ℓ : Loc nD τ sig) → Buf (Elt Ideal) ℓ) (ρ : Dev nD → PrngReg)

/-- The projection region's result, when the host stretch starts: the pooled rows times the weights. -/
theorem projected (c : Dev nD) :
    W1 m ρ c (Proc.devRef .tc main_v0)
      = rowsTimes (n := 50000) (m ((c : Thread nD τ).loc main_arg3)) (m ((c : Thread nD τ).loc main_arg4)) :=
  (W1_arr m ρ c 2).trans (Projection.final (V0 m ρ) c)

/-- The edge list, the row numbers and the bias are as launched when the host stretch starts. -/
theorem edges_kept (c : Dev nD) : W1 m ρ c (Proc.devRef .tc main_arg1) = m ((c : Thread nD τ).loc main_arg1) :=
  W1_of_ne m ρ c main_arg1 (by decide)
theorem rows_kept (c : Dev nD) : W1 m ρ c (Proc.devRef .tc main_arg2) = m ((c : Thread nD τ).loc main_arg2) :=
  W1_of_ne m ρ c main_arg2 (by decide)
theorem bias_kept (c : Dev nD) : W1 m ρ c (Proc.devRef .tc main_arg5) = m ((c : Thread nD τ).loc main_arg5) :=
  W1_of_ne m ρ c main_arg5 (by decide)

/-- The aggregate the epilogue region finds. -/
theorem aggregate_found (c : Dev nD) :
    V2 m ρ c main_v51
      = aggregate (scattered (rowsTimes (n := 50000) (m ((c : Thread nD τ).loc main_arg3)) (m ((c : Thread nD τ).loc main_arg4)))
          (m ((c : Thread nD τ).loc main_arg2))) (m ((c : Thread nD τ).loc main_arg1)) := by
  show StableHlo.after (hostOps1 (F := Ideal)) (W1 m ρ c) (Proc.devRef .tc main_v51) = _
  rw [after_aggregate, projected, edges_kept, rows_kept]

/-- The bias row the epilogue region finds. -/
theorem bias_found (c : Dev nD) :
    V2 m ρ c main_v52 = shapeCast S1x128 (m ((c : Thread nD τ).loc main_arg5)) Facts₀.shapeCasts_S128_S1x128 := by
  show StableHlo.after (hostOps1 (F := Ideal)) (W1 m ρ c) (Proc.devRef .tc main_v52) = _
  rw [after_bias, bias_kept]

/-- The result buffer after the run: bias-and-rectifier of the aggregate of the scattered projected rows. -/
theorem result (c : Dev nD) :
    W3 m ρ c (Proc.devRef .tc main_v53)
      = biasRelu (n := 100000)
          (aggregate (scattered (rowsTimes (n := 50000) (m ((c : Thread nD τ).loc main_arg3)) (m ((c : Thread nD τ).loc main_arg4)))
            (m ((c : Thread nD τ).loc main_arg2))) (m ((c : Thread nD τ).loc main_arg1)))
          (shapeCast S1x128 (m ((c : Thread nD τ).loc main_arg5)) Facts₀.shapeCasts_S128_S1x128) := by
  refine (W3_arr m ρ c 2).trans ((Epilogue.final (V2 m ρ) c).trans ?_)
  rw [aggregate_found, bias_found]

end Cert.KernelIdeal.Result

end
-- ==== Proof.Bridge.lean ====
/-
  The two programs' results are one function of the arguments.

  KERNEL PROGRAM: project the pooled rows (`x · W`), write the projected rows into a zero matrix at the given row
  numbers, aggregate over the edges, add the bias and rectify. REFERENCE: write the pooled rows into a zero matrix at
  the same row numbers, project the whole matrix, aggregate over the edges, add the bias and rectify.
  The aggregation is the same function of the node features on both sides, so it is enough that the features agree:
  projecting scattered rows is scattering projected rows (`Cert.Algebra.rowsTimes_scatter`), because which written row
  lands on a given row is decided by the row numbers alone, and a row nothing lands on is zero on both sides. The
  epilogue is the same entry-by-entry function (the bias row broadcast down the rows, the maximum with zero).
-/
import proofs.«130107_j55834574848182_2_alg».proof.Proof.Gen.ReferenceIdeal.Read
import proofs.«130107_j55834574848182_2_alg».proof.KernelIdeal
import proofs.«130107_j55834574848182_2_alg».proof.Proof.Gen.KernelIdeal
import proofs.«130107_j55834574848182_2_alg».proof.Proof.Aggregate
import proofs.«130107_j55834574848182_2_alg».proof.Proof.Algebra
import proofs.«130107_j55834574848182_2_alg».proof.Proof.HostStretch
import Idealize.ShloMosaic.Lib.Pipeline.Value
import Idealize.ShloMosaic.Lib.ValueIdx

set_option maxRecDepth 16384

noncomputable section

namespace Cert.Bridge

open Cert.ReferenceIdeal Cert.ReferenceIdeal.Gen Cert.ReferenceIdeal.Read Cert.ReferenceIdeal.RefValue
open Idealize.ShloMosaic Idealize.ShloMosaic.ValueIdx Cert.Algebra Cert.LibScatterRows

/-- The zero word of the narrower float format denotes zero. -/
theorem ofBits_zero_bf16 : Ideal.ofBits .bf16 0x0000#16 = 0 := by simp [Ideal.ofBits, Ideal.ieee]

/-- The reference's zero matrix is zero everywhere. -/
theorem zeros_ref : (val_main_v0 (F := Ideal)) = fun _ => (0 : EReal) := by
  funext i
  rw [val_main_v0_apply]
  exact Ideal.ofBits_zero_f32

/-- The kernel program's zero matrix is zero everywhere. -/
theorem zeros_ker : (broadcastInDim Cert.KernelIdeal.S100000x128 ![] Cert.KernelIdeal.Facts₀.bcast_S_S100000x128
      (constant (F := Ideal) Cert.KernelIdeal.S_ .bf16 0x0000#16)) = fun _ => (0 : EReal) := by
  funext i
  rw [broadcastInDim_apply _ Cert.KernelIdeal.Facts₀.bcast_S_S100000x128 _ i (fun a => a.elim0) (fun a => a.elim0)]
  exact ofBits_zero_bf16

/-- The scatter's side conditions, as the reference states them. -/
theorem scatter_wf : ScatterDims.WF ⟨2, ![100000, 128]⟩ ⟨2, ![50000, 1]⟩ ⟨2, ![50000, 128]⟩ [1] [0] [0] 1 :=
  Facts₀.scatter_S100000x128_S50000x1_S50000x128_1_0_0_1_wf

/-- The reference's scattered rows, over the zero matrix spelt as zero. -/
theorem scattered_ref (x2 : (⟨S50000, .i32⟩ : BufTy).Contents (Elt Ideal)) (x3 : (⟨S50000x128, .f32⟩ : BufTy).Contents (Elt Ideal)) :
    val_main_v7 (F := Ideal) x2 x3
      = Host.scatter (rowsDims 100000 128 50000 scatter_wf) (fun _ b => b) (fun _ => (0 : EReal)) (val_main_v6 (F := Ideal) x2) x3 := by
  unfold val_main_v7
  rw [zeros_ref]
  rfl

/-- The kernel program's scattered rows, over the zero matrix spelt as zero and the reference's spelling of the row
    numbers (the same operations of the same argument). -/
theorem scattered_ker (hx : (⟨2, ![50000, 128]⟩ : Shape).Idx → EReal) (x2 : (⟨S50000, .i32⟩ : BufTy).Contents (Elt Ideal)) :
    Cert.KernelIdeal.HostStretch.scattered hx x2
      = Host.scatter (rowsDims 100000 128 50000 scatter_wf) (fun _ b => b) (fun _ => (0 : EReal)) (val_main_v6 (F := Ideal) x2) hx := by
  unfold Cert.KernelIdeal.HostStretch.scattered
  rw [zeros_ker]
  rfl

/-- The reference's projection is the product with the weights, entry by entry. -/
theorem projected_ref (x2 : (⟨S50000, .i32⟩ : BufTy).Contents (Elt Ideal)) (x3 : (⟨S50000x128, .f32⟩ : BufTy).Contents (Elt Ideal))
    (x4 : (⟨S128x128, .f32⟩ : BufTy).Contents (Elt Ideal)) :
    val_main_v8 (F := Ideal) x2 x3 x4 = rowsTimes (n := 100000) (val_main_v7 (F := Ideal) x2 x3) x4 := by
  funext i
  obtain ⟨r, e, rfl⟩ : ∃ (r : Fin 100000) (e : Fin 128), i = ix2 r e := ⟨i 0, i 1, eq_ix2 i⟩
  rw [val_main_v8_apply, rowsTimes_apply]
  refine Finset.sum_congr rfl fun k _ => ?_
  have hl : lidx_main_v8 (ix2 r e) k = ix2 r k := funext fun a => by
    match a with
    | ⟨0, _⟩ => rfl
    | ⟨1, _⟩ => rfl
  have hr : ridx_main_v8 (ix2 r e) k = ix2 k e := funext fun a => by
    match a with
    | ⟨0, _⟩ => rfl
    | ⟨1, _⟩ => rfl
  rw [hl, hr]

/-- THE FEATURES AGREE: the reference's projected scattered rows are the kernel program's scattered projected rows. -/
theorem features_eq (x2 : (⟨S50000, .i32⟩ : BufTy).Contents (Elt Ideal)) (x3 : (⟨S50000x128, .f32⟩ : BufTy).Contents (Elt Ideal))
    (x4 : (⟨S128x128, .f32⟩ : BufTy).Contents (Elt Ideal)) :
    val_main_v8 (F := Ideal) x2 x3 x4 = Cert.KernelIdeal.HostStretch.scattered (rowsTimes (n := 50000) x3 x4) x2 := by
  rw [projected_ref, scattered_ref, scattered_ker]
  exact rowsTimes_scatter scatter_wf (val_main_v6 (F := Ideal) x2) x3 x4

/-- The bias row the epilogue region reads, at column `e`, is the bias at `e`. -/
theorem bias_row (x5 : (⟨S128, .f32⟩ : BufTy).Contents (Elt Ideal)) (h : Cert.KernelIdeal.S128.ShapeCasts Cert.KernelIdeal.S1x128) (e : Fin 128) :
    shapeCast Cert.KernelIdeal.S1x128 x5 h (ix2 (0 : Fin 1) e) = x5 (ix1 e) := by
  refine shapeCast_apply x5 h (ix2 (0 : Fin 1) e) (ix1 e) ?_
  rw [Shape.rowMajor_val_one, Shape.rowMajor_val_two]
  show e.val = 0 * 128 + e.val
  omega

/-- The epilogue agrees: bias-and-rectifier with the bias row is the reference's sum with the broadcast bias followed
    by the maximum with the zero matrix, for ANY aggregate `a`. -/
theorem epilogue_eq (a : (⟨S100000x128, .f32⟩ : BufTy).Contents (Elt Ideal)) (x5 : (⟨S128, .f32⟩ : BufTy).Contents (Elt Ideal))
    (h : Cert.KernelIdeal.S128.ShapeCasts Cert.KernelIdeal.S1x128) :
    biasRelu (n := 100000) a (shapeCast Cert.KernelIdeal.S1x128 x5 h)
      = maximumf (F := Ideal) (φ := .f32) (addf (F := Ideal) (φ := .f32) a (val_main_v52 (F := Ideal) x5)) (val_main_call0_v0 (F := Ideal)) := by
  funext i
  obtain ⟨r, e, rfl⟩ : ∃ (r : Fin 100000) (e : Fin 128), i = ix2 r e := ⟨i 0, i 1, eq_ix2 i⟩
  show max (a (ix2 r e) + shapeCast Cert.KernelIdeal.S1x128 x5 h (ix2 (0 : Fin 1) e)) (Ideal.ofBits .f32 0x00000000#32)
    = max (a (ix2 r e) + val_main_v52 (F := Ideal) x5 (ix2 r e)) (val_main_call0_v0 (F := Ideal) (ix2 r e))
  have h1 : idx_main_v51 (idx_main_v52 (ix2 r e)) = ix1 e := funext fun b => by
    match b with
    | ⟨0, _⟩ => rfl
  have h2 : val_main_call0_cst (F := Ideal) (idx_main_call0_v0 (ix2 r e)) = Ideal.ofBits .f32 0x00000000#32 := rfl
  rw [bias_row, val_main_v52_apply, val_main_v51_apply, val_main_call0_v0_apply, h1, h2]

/-- THE RESULTS AGREE: the kernel program's result, as its run leaves it, is the reference's result term. -/
theorem result_eq (x1 : (⟨S2x1600000, .i32⟩ : BufTy).Contents (Elt Ideal)) (x2 : (⟨S50000, .i32⟩ : BufTy).Contents (Elt Ideal))
    (x3 : (⟨S50000x128, .f32⟩ : BufTy).Contents (Elt Ideal)) (x4 : (⟨S128x128, .f32⟩ : BufTy).Contents (Elt Ideal))
    (x5 : (⟨S128, .f32⟩ : BufTy).Contents (Elt Ideal)) (h : Cert.KernelIdeal.S128.ShapeCasts Cert.KernelIdeal.S1x128) :
    biasRelu (n := 100000) (aggregate (Cert.KernelIdeal.HostStretch.scattered (rowsTimes (n := 50000) x3 x4) x2) x1)
        (shapeCast Cert.KernelIdeal.S1x128 x5 h)
      = val_main_v54 (F := Ideal) x1 x2 x3 x4 x5 := by
  rw [← features_eq, ← val_main_v50_eq]
  unfold val_main_v54 val_main_v53
  exact epilogue_eq _ x5 h

end Cert.Bridge

end
-- ==== Proof.lean ====
/-
  The certificate of a graph-convolution layer on unpooled features: a TPU program with two kernel regions against
  its array-library reference, equal as extended reals.

  THE TWO PROGRAMS. The reference writes the pooled rows `x : [50000, 128]` into a zero matrix of 100000 rows at
  the given row numbers, multiplies the whole matrix by the weights `W : [128, 128]`, then sums over every edge
  `(s, d)` and a self-loop at every node the row `s` scaled by `rsqrt (max (deg s, 1)) · rsqrt (max (deg d, 1))` into
  row `d`, adds the bias and takes the maximum with zero. The kernel program multiplies the 50000 pooled rows by `W`
  FIRST, in a kernel region of five row blocks, writes the products into the zero matrix at the same row numbers, does
  the same sum over edges on the host, and adds the bias and rectifies in a second kernel region of ten row blocks.

  WHY THEY AGREE. Multiplication by `W` acts on each row by itself, and which written row ends on a given row of the
  scattered matrix (the last one aimed at it) is decided by the row numbers alone; a row nothing is written to is zero,
  and zero times anything is zero on the extended reals. So the node features entering the sum over edges are equal
  (`Cert.Bridge.features_eq`), the sum is one function of them on both sides, and the epilogue is the same function
  entry by entry (`Cert.Bridge.result_eq`). The precondition (finite inputs) is not used: no step cancels or
  distributes. Changes of float format are the identity on the extended reals, and the idealization rewrote no operation,
  so the `preserves` conjunct is `True`.

  THE RUNS. The kernel program's frames are the generated ones; its value run is the same three segments with the
  result buffer read at the end (`RunValue.run_result`), opened region by region (`Result.result`). The reference's
  frame and value are its generated run and stage-by-stage reading.
-/
import proofs.«130107_j55834574848182_2_alg».proof.Defs
import proofs.«130107_j55834574848182_2_alg».proof.Proof.Gen.Kernel
import proofs.«130107_j55834574848182_2_alg».proof.Proof.Gen.Kernel.Skeleton
import proofs.«130107_j55834574848182_2_alg».proof.Proof.Gen.Kernel.Launch
import proofs.«130107_j55834574848182_2_alg».proof.Proof.Gen.Kernel.Points
import proofs.«130107_j55834574848182_2_alg».proof.Proof.Gen.Kernel.Frame
import proofs.«130107_j55834574848182_2_alg».proof.Proof.Gen.KernelIdeal
import proofs.«130107_j55834574848182_2_alg».proof.Proof.Gen.KernelIdeal.Skeleton
import proofs.«130107_j55834574848182_2_alg».proof.Proof.Gen.KernelIdeal.Launch
import proofs.«130107_j55834574848182_2_alg».proof.Proof.Gen.KernelIdeal.Points
import proofs.«130107_j55834574848182_2_alg».proof.Proof.Gen.KernelIdeal.Frame
import proofs.«130107_j55834574848182_2_alg».proof.Proof.Gen.ReferenceIdeal
import proofs.«130107_j55834574848182_2_alg».proof.Proof.Gen.Pre_finite_inputs
import proofs.«130107_j55834574848182_2_alg».proof.Proof.Gen.ReferenceIdeal.Run
import proofs.«130107_j55834574848182_2_alg».proof.Proof.Gen.ReferenceIdeal.Read
import proofs.«130107_j55834574848182_2_alg».proof.Proof.KernelRun
import proofs.«130107_j55834574848182_2_alg».proof.Proof.KernelValue
import proofs.«130107_j55834574848182_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the reference's result term of the (agreeing) arguments: the kernel
    program's run leaves the last boundary's contents there, which are that term (`Result.result`, `Bridge.result_eq`). -/
theorem algebraic : Cert.algebraic_KernelIdeal_ReferenceIdeal := by
  intro m ρ m' ρ' _ hagree
  refine ⟨fun c => Cert.KernelIdeal.Gen.W3 m ρ c (Proc.devRef .tc Cert.KernelIdeal.main_v53),
    Cert.KernelIdeal.RunValue.run_result (F := Ideal) m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v54 m' c = Cert.KernelIdeal.Gen.W3 m ρ c (Proc.devRef .tc Cert.KernelIdeal.main_v53)
  rw [Cert.KernelIdeal.Result.result, Cert.ReferenceIdeal.Read.val_main_v54_eq, (hagree c).2.1, (hagree c).2.2.1,
    (hagree c).2.2.2.1, (hagree c).2.2.2.2.1, (hagree c).2.2.2.2.2]
  exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
